-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x3200000 : Shape := ⟨2, ![2, 3200000]⟩
abbrev S2x1000000 : Shape := ⟨2, ![2, 1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S2x3200000 32) (main_arg8 : IVec S2x1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x3200000 : Shape := ⟨2, ![2, 3200000]⟩
abbrev S2x1000000 : Shape := ⟨2, ![2, 1000000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S4000x64 : Shape := ⟨2, ![4000, 64]⟩
abbrev S4000x1 : Shape := ⟨2, ![4000, 1]⟩
abbrev S4000 : Shape := ⟨1, ![4000]⟩

abbrev nBuf : Space → Nat
  | .hbm => 129
  | .vmem => 23
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x3200000, .i32⟩
  | 8 => ⟨S2x1000000, .i32⟩
  | 9 => ⟨S1x3200000, .i32⟩
  | 10 => ⟨S3200000, .i32⟩
  | 11 => ⟨S1x3200000, .i32⟩
  | 12 => ⟨S3200000, .i32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000x64, .f32⟩
  | 77 => ⟨S3300000x1, .f32⟩
  | 78 => ⟨S3300000x64, .f32⟩
  | 79 => ⟨S3300000x64, .f32⟩
  | 80 => ⟨S_, .f32⟩
  | 81 => ⟨S100000x64, .f32⟩
  | 82 => ⟨S3300000x1, .i32⟩
  | 83 => ⟨S100000x64, .f32⟩
  | 84 => ⟨S1x64, .f32⟩
  | 85 => ⟨S100000x64, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000x64, .f32⟩
  | 95 => ⟨S3300000x1, .f32⟩
  | 96 => ⟨S3300000x64, .f32⟩
  | 97 => ⟨S3300000x64, .f32⟩
  | 98 => ⟨S_, .f32⟩
  | 99 => ⟨S100000x64, .f32⟩
  | 100 => ⟨S3300000x1, .i32⟩
  | 101 => ⟨S100000x64, .f32⟩
  | 102 => ⟨S1x64, .f32⟩
  | 103 => ⟨S100000x64, .f32⟩
  | 104 => ⟨S100000x64, .f32⟩
  | 105 => ⟨S1x1000000, .i32⟩
  | 106 => ⟨S1000000, .i32⟩
  | 107 => ⟨S1x1000000, .i32⟩
  | 108 => ⟨S1000000, .i32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S1000000x1, .f32⟩
  | _ => ⟨S100000x128, .f32⟩

abbrev hbmTy0_1 (i : Nat) : BufTy := match i % 128 with
  | 0 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_15 : Ref sig .tc := ⟨.hbm, 109, rfl⟩
abbrev main_v81 : Ref sig .tc := ⟨.hbm, 110, rfl⟩
abbrev main_v82 : Ref sig .tc := ⟨.hbm, 111, rfl⟩
abbrev main_c_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S1000000x1_S1000000 : S1000000x1.ShapeCasts S1000000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1000000x64.size a
  hwx3_0 : ∀ i : grid3.Coords, EltTy.bits .f32 = 32 ∨ (Rect.block (s := S1000000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S1000000x64.size a
  hwx3_1 : ∀ i : grid3.Coords, EltTy.bits .f32 = 32 ∨ (Rect.block (s := S1000000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S1000000x1.size a
  hwx3_2 : ∀ i : grid3.Coords, EltTy.bits .f32 = 32 ∨ (Rect.block (s := S1000000x1) S4000x1.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S4000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x3200000 : Shape := ⟨2, ![2, 3200000]⟩
abbrev S2x1000000 : Shape := ⟨2, ![2, 1000000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x3200000, .i32⟩
  | 8 => ⟨S2x1000000, .i32⟩
  | 9 => ⟨S1x3200000, .i32⟩
  | 10 => ⟨S3200000, .i32⟩
  | 11 => ⟨S1x3200000, .i32⟩
  | 12 => ⟨S3200000, .i32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000x64, .f32⟩
  | 82 => ⟨S3300000x1, .f32⟩
  | 83 => ⟨S3300000x64, .f32⟩
  | 84 => ⟨S3300000x64, .f32⟩
  | 85 => ⟨S_, .f32⟩
  | 86 => ⟨S100000x64, .f32⟩
  | 87 => ⟨S3300000x1, .i32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000x64, .f32⟩
  | 105 => ⟨S3300000x1, .f32⟩
  | 106 => ⟨S3300000x64, .f32⟩
  | 107 => ⟨S3300000x64, .f32⟩
  | 108 => ⟨S_, .f32⟩
  | 109 => ⟨S100000x64, .f32⟩
  | 110 => ⟨S3300000x1, .i32⟩
  | 111 => ⟨S100000x64, .f32⟩
  | 112 => ⟨S1x64, .f32⟩
  | 113 => ⟨S100000x64, .f32⟩
  | 114 => ⟨S100000x64, .f32⟩
  | 115 => ⟨S1x1000000, .i32⟩
  | 116 => ⟨S1000000, .i32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x64, .f32⟩
  | 126 => ⟨S1x1000000, .i32⟩
  | 127 => ⟨S1000000, .i32⟩
  | _ => ⟨S100000x128, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S1000000x64, .f32⟩
  | 10 => ⟨S_, .f32⟩
  | 11 => ⟨S1000000, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S_, .f32⟩
  | 18 => ⟨S1000000, .f32⟩
  | 19 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_15 : Ref sig .tc := ⟨.hbm, 117, rfl⟩
abbrev main_v85 : Ref sig .tc := ⟨.hbm, 118, rfl⟩
abbrev main_v86 : Ref sig .tc := ⟨.hbm, 119, rfl⟩
abbrev main_c_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_17 : Ref sig .tc := ⟨.hbm, 128, rfl⟩
abbrev main_v94 : Ref sig .tc := ⟨.hbm, 129, rfl⟩
abbrev main_v95 : Ref sig .tc := ⟨.hbm, 130, rfl⟩
abbrev main_c_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_19 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_20 : Ref sig .tc := ⟨.hbm, 142, rfl⟩
abbrev main_v105 : Ref sig .tc := ⟨.hbm, 143, rfl⟩
abbrev main_v106 : Ref sig .tc := ⟨.hbm, 144, rfl⟩
abbrev main_cst_21 : Ref sig .tc := ⟨.hbm, 145, rfl⟩
abbrev main_v107 : Ref sig .tc := ⟨.hbm, 146, rfl⟩
abbrev main_v108 : Ref sig .tc := ⟨.hbm, 147, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.RunAll.lean ====
/-
  The idealized kernel's run with every buffer named.

  @main of the kernel's program is eleven segments: stretches of host operations and four kernel regions in turn. The
  library's launch theorem for such a program (a list of segments chained through thread states, each boundary's
  contents a fold from the launch memory) gives, for every weakly fair execution, termination without a fault in a state
  where every buffer that outlives the regions holds the last boundary's contents. The frame certificate keeps only the
  arguments from that post; here the whole of it is kept, so that the result buffer can be read too.
-/
import proofs.«131875_j62371515072932_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that is not
    scoped to a region holds the contents of the last boundary: the segments' launch, the last thread state read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The same run with the result buffer and the nine arguments singled out: the result at the last boundary's contents,
    each argument as launched. -/
theorem run_result : θ_run defs (onTc (τ := τ) (main (F := F))) ⟨m, fun _ => 0, ρ⟩ (fun r => ∀ c : Dev nD,
      r.2.mem ((c.tc : Thread nD τ).loc main_v96) = W11 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v96 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)
    (run_all m ρ)

end Cert.KernelIdeal.Whole

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Lin0.lean ====
/-
  The first linear layer, region by region.

  The first kernel multiplies the node table `x` (100000 × 128), ten blocks of 10000 rows at a time, by the whole weight
  matrix `W1` (128 × 64); both operands are narrowed to bf16 on the way in, which is the identity on extended reals, and
  the product is accumulated into a zero block. Block `t` of the result therefore holds, at row `q` and column `o`, the
  sum over `c` of `x (t·10000 + q, c) · W1 (c, o)`, which is entry `(t·10000 + q, o)` of the one whole product the
  reference takes. The ten blocks tile the rows, so the whole array after the region is that product.
-/
import proofs.«131875_j62371515072932_1_alg».proof.Proof.Gen.KernelIdeal.Frame
import proofs.«131875_j62371515072932_1_alg».proof.Proof.RefRead
import proofs.«131875_j62371515072932_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.Bridge.Lin0

open Idealize.ShloMosaic Idealize.ShloMosaic.TcCoe Idealize.ShloMosaic.ValueIdx Idealize.SL.Sem
open Cert.KernelIdeal Cert.KernelIdeal.Gen

theorem hz : (![0, 0] : Fin 2 → Nat) = fun _ => 0 := funext fun a => by fin_cases a <;> rfl

/-- The block product at row `q`, column `o`: the sum over the shared axis. -/
theorem pay_apply (x0 : Vec Ideal S10000x128 .f32) (x1 : Vec Ideal S128x64 .f32) (q : Fin 10000) (o : Fin 64) :
    k0_pay1 (F := Ideal) x0 x1 (ix2 q o) = ∑ c : Fin 128, x0 (ix2 q c) * x1 (ix2 c o) := by
  unfold k0_pay1
  exact Cert.PointConv.plainMatmul_zero_apply (R := 10000) (n := 128) (k := 64)
    dot_S10000x128_S128x64_S10000x64_1_0_0_1_n_n.wf none _ _ q o

/-- One entry of a block's product is the whole product's entry `b·10000` rows further down, when the block of `x` is
    rows `b·10000 …` of the table and the weight block is the whole matrix. -/
theorem point (x0 : Vec Ideal S10000x128 .f32) (x1 : Vec Ideal S128x64 .f32)
    (X0 : S100000x128.Idx → EReal) (X1 : S128x64.Idx → EReal)
    (j : S10000x64.Idx) (i : S100000x64.Idx) (b : ℕ)
    (h0 : (i 0).val = b * 10000 + (j 0).val) (h1 : (i 1).val = (j 1).val)
    (hx0 : ∀ (y : S10000x128.Idx) (i' : S100000x128.Idx), (i' 0).val = b * 10000 + (y 0).val → (i' 1).val = (y 1).val →
      x0 y = X0 i')
    (hx1 : ∀ y : S128x64.Idx, x1 y = X1 y) :
    k0_pay1 (F := Ideal) x0 x1 j = Cert.ReferenceIdeal.Read.val_main_v30 (F := Ideal) X0 X1 i := by
  obtain ⟨q, o, rfl⟩ : ∃ (q : Fin 10000) (o : Fin 64), j = ix2 q o := ⟨j 0, j 1, eq_ix2 j⟩
  rw [pay_apply, Cert.ReferenceIdeal.Read.val_main_v30_apply]
  refine Finset.sum_congr rfl fun k _ => ?_
  rw [hx0 (ix2 q k) (Cert.ReferenceIdeal.Read.lidx_main_v30 i k) h0 rfl, hx1]
  refine congrArg (fun z => X0 (Cert.ReferenceIdeal.Read.lidx_main_v30 i k) * X1 z) (funext fun a => Fin.ext ?_)
  match a with
  | ⟨0, _⟩ => rfl
  | ⟨1, _⟩ => exact h1.symm

/-- The printed index maps over the ten points: the table's and the result's blocks move down with the point, the
    weight's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 (F := Ideal) V c).flushed 2 t = ((cfg0.win 2).blk t).view.read (Elt Ideal)
      (Cert.ReferenceIdeal.Read.val_main_v30 (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  show k0_pay1 (iblk0 V c 0 t) (iblk0 V c 1 t) j
    = Cert.ReferenceIdeal.Read.val_main_v30 (V c main_arg0) (V c main_arg1) (((cfg0.win 2).blk t).view.emb j)
  refine point (iblk0 V c 0 t) (iblk0 V c 1 t) (V c main_arg0) (V c main_arg1) j (((cfg0.win 2).blk t).view.emb j) t.val
    ?_ ?_ ?_ ?_
  · show win0_2.index t (0 : Fin 2) * 10000 + 1 * (j 0).val = t.val * 10000 + (j 0).val; omega
  · show win0_2.index t (1 : Fin 2) * 64 + 1 * (j 1).val = (j 1).val; omega
  · intro y i' hy0 hy1
    show V c main_arg0 (((cfg0.win 0).blk t).view.emb y) = V c main_arg0 i'
    refine congrArg _ (funext fun a => Fin.ext ?_)
    match a with
    | ⟨0, _⟩ => show win0_0.index t (0 : Fin 2) * 10000 + 1 * (y 0).val = (i' 0).val; omega
    | ⟨1, _⟩ => show win0_0.index t (1 : Fin 2) * 128 + 1 * (y 1).val = (i' 1).val; omega
  · intro y
    show V c main_arg1 (((cfg0.win 1).blk t).view.emb y) = V c main_arg1 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega

/-- An index is in point `t`'s block of the result iff each coordinate is in the block's range. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the result is in the block of point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- After the region the result array is the whole product of the table and the weight as the region found them. -/
theorem final (c : Dev nD) : (dat0 (F := Ideal) V c).arrAt 2 cfg0.N
    = Cert.ReferenceIdeal.Read.val_main_v30 (F := Ideal) (V c main_arg0) (V c main_arg1) :=
  (dat0 V c).arrAt_eq_of_cover 2 _ (fun t _ => flushed_eq V c t) cover

end Cert.Bridge.Lin0

end
-- ==== Proof.Bnd3.lean ====
/-
  The kernel's program up to its first region and across it.

  Before the first kernel the host computes, from the edge list alone, the source and target lists with one self loop
  per node appended and the symmetric normalisation of every edge; these are the same operations, in the same order,
  as the reference's, so the three arrays are the reference's stages of the edge-list argument. No host operation
  writes an argument. The first region leaves the product of the node table and the first weight in its result buffer
  and every other buffer as it was.
-/
import proofs.«131875_j62371515072932_1_alg».proof.Proof.Gen.KernelIdeal.Frame
import proofs.«131875_j62371515072932_1_alg».proof.Proof.RefRead
import proofs.«131875_j62371515072932_1_alg».proof.Proof.Lin0
import Idealize.ShloMosaic.Lib.StableHlo.Run

-- the host operations' results at a buffer are read off the fold by evaluation, one level per operation
set_option maxRecDepth 65536
set_option maxHeartbeats 2000000

noncomputable section

namespace Cert.Bridge.Bnd

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v5 val_main_v6 val_main_v29 val_main_v30 val_main_v43 val_main_v48 val_main_v61
  val_main_v66 val_main_v82 val_main_v91 val_main_v100 val_main_v108)

variable (m : (ℓ : Loc nD τ sig) → Buf (Elt Ideal) ℓ) (ρ : Dev nD → PrngReg) (c : Dev nD)

/-- The nine arguments as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

/-- What stays put from the first region on: the bias and weight arguments and the label list unchanged, the two
    edge lists with self loops and the edges' normalisation at the reference's stages of the edge-list argument. -/
structure Keeps (W : Valuation τ sig (Elt Ideal)) : Prop where
  a2 : W (Proc.devRef .tc main_arg2) = A2 m c
  a3 : W (Proc.devRef .tc main_arg3) = A3 m c
  a4 : W (Proc.devRef .tc main_arg4) = A4 m c
  a5 : W (Proc.devRef .tc main_arg5) = A5 m c
  a6 : W (Proc.devRef .tc main_arg6) = A6 m c
  a8 : W (Proc.devRef .tc main_arg8) = A8 m c
  v5 : W (Proc.devRef .tc main_v5) = val_main_v5 (F := Ideal) (A7 m c)
  v6 : W (Proc.devRef .tc main_v6) = val_main_v6 (F := Ideal) (A7 m c)
  v29 : W (Proc.devRef .tc main_v29) = val_main_v29 (F := Ideal) (A7 m c)

theorem a0_3 : W3 m ρ c (Proc.devRef .tc main_arg0) = A0 m c := by
  show StableHlo.after hostOps0_2 (StableHlo.after hostOps0_1 (StableHlo.after hostOps0 (W0 m ρ c))) (Proc.devRef .tc main_arg0) = _
  after_results_simp <;> rfl

theorem a1_3 : W3 m ρ c (Proc.devRef .tc main_arg1) = A1 m c := by
  show StableHlo.after hostOps0_2 (StableHlo.after hostOps0_1 (StableHlo.after hostOps0 (W0 m ρ c))) (Proc.devRef .tc main_arg1) = _
  after_results_simp <;> rfl

/-- After the first stretch: the degree's comparison with zero, its inverse square root and the zero constant. -/
theorem v12_1 : W1 m ρ c (Proc.devRef .tc main_v12) = Cert.ReferenceIdeal.Read.val_main_v12 (F := Ideal) (A7 m c) := by
  show StableHlo.after hostOps0 (W0 m ρ c) (Proc.devRef .tc main_v12) = _
  after_results_simp <;> rfl

theorem v13_1 : W1 m ρ c (Proc.devRef .tc main_v13) = Cert.ReferenceIdeal.Read.val_main_v13 (F := Ideal) (A7 m c) := by
  show StableHlo.after hostOps0 (W0 m ρ c) (Proc.devRef .tc main_v13) = _
  after_results_simp <;> rfl

theorem cst2_1 : W1 m ρ c (Proc.devRef .tc main_cst_2) = Cert.ReferenceIdeal.Read.val_main_cst_2 (F := Ideal) := by
  show StableHlo.after hostOps0 (W0 m ρ c) (Proc.devRef .tc main_cst_2) = _
  after_results_simp <;> rfl

/-- The second stretch (the inlined `where`) from any contents: a select of what it finds at three buffers. Stated
    over the buffers' contents as they are, so that the transports between a buffer's own type and the value's type are
    removed while nothing else can be unfolded. -/
theorem where_of (Wx : Valuation τ sig (Elt Ideal)) :
    StableHlo.after hostOps0_1 Wx (Proc.devRef .tc main_v14)
      = select (Wx (Proc.devRef .tc main_v12)) (Wx (Proc.devRef .tc main_v13))
          (broadcastInDim S100000 ![] bcast_S_S100000 (id (Wx (Proc.devRef .tc main_cst_2)))) := by
  after_results_simp
  rfl

/-- After the second stretch: `d^(-1/2)` where the degree is positive, zero elsewhere. -/
theorem v14_2 : W2 m ρ c (Proc.devRef .tc main_v14) = Cert.ReferenceIdeal.Read.val_main_v14 (F := Ideal) (A7 m c) := by
  refine (where_of (W1 m ρ c)).trans ?_
  rw [v12_1 m ρ c, v13_1 m ρ c, cst2_1 m ρ c]
  rfl

theorem v5_2 : W2 m ρ c (Proc.devRef .tc main_v5) = val_main_v5 (F := Ideal) (A7 m c) := by
  show StableHlo.after hostOps0_1 (StableHlo.after hostOps0 (W0 m ρ c)) (Proc.devRef .tc main_v5) = _
  after_results_simp <;> rfl

theorem v6_2 : W2 m ρ c (Proc.devRef .tc main_v6) = val_main_v6 (F := Ideal) (A7 m c) := by
  show StableHlo.after hostOps0_1 (StableHlo.after hostOps0 (W0 m ρ c)) (Proc.devRef .tc main_v6) = _
  after_results_simp <;> rfl

/-- The third stretch from any contents holding the two edge lists and `d^(-1/2)`: each edge's normalisation. -/
theorem norm_of (Wx : Valuation τ sig (Elt Ideal)) (x7 : (⟨S2x3200000, .i32⟩ : BufTy).Contents (Elt Ideal))
    (h5 : Wx (Proc.devRef .tc main_v5) = val_main_v5 (F := Ideal) x7)
    (h6 : Wx (Proc.devRef .tc main_v6) = val_main_v6 (F := Ideal) x7)
    (h14 : Wx (Proc.devRef .tc main_v14) = Cert.ReferenceIdeal.Read.val_main_v14 (F := Ideal) x7) :
    StableHlo.after hostOps0_2 Wx (Proc.devRef .tc main_v29) = val_main_v29 (F := Ideal) x7 := by
  after_results_simp
  rw [h5, h6, h14]
  rfl

/-- At the first region's entry. -/
theorem keeps3 : Keeps m c (W3 m ρ c) where
  a2 := by
    show StableHlo.after hostOps0_2 (StableHlo.after hostOps0_1 (StableHlo.after hostOps0 (W0 m ρ c))) (Proc.devRef .tc main_arg2) = _
    after_results_simp <;> rfl
  a3 := by
    show StableHlo.after hostOps0_2 (StableHlo.after hostOps0_1 (StableHlo.after hostOps0 (W0 m ρ c))) (Proc.devRef .tc main_arg3) = _
    after_results_simp <;> rfl
  a4 := by
    show StableHlo.after hostOps0_2 (StableHlo.after hostOps0_1 (StableHlo.after hostOps0 (W0 m ρ c))) (Proc.devRef .tc main_arg4) = _
    after_results_simp <;> rfl
  a5 := by
    show StableHlo.after hostOps0_2 (StableHlo.after hostOps0_1 (StableHlo.after hostOps0 (W0 m ρ c))) (Proc.devRef .tc main_arg5) = _
    after_results_simp <;> rfl
  a6 := by
    show StableHlo.after hostOps0_2 (StableHlo.after hostOps0_1 (StableHlo.after hostOps0 (W0 m ρ c))) (Proc.devRef .tc main_arg6) = _
    after_results_simp <;> rfl
  a8 := by
    show StableHlo.after hostOps0_2 (StableHlo.after hostOps0_1 (StableHlo.after hostOps0 (W0 m ρ c))) (Proc.devRef .tc main_arg8) = _
    after_results_simp <;> rfl
  v5 := by
    show StableHlo.after hostOps0_2 (StableHlo.after hostOps0_1 (StableHlo.after hostOps0 (W0 m ρ c))) (Proc.devRef .tc main_v5) = _
    after_results_simp <;> rfl
  v6 := by
    show StableHlo.after hostOps0_2 (StableHlo.after hostOps0_1 (StableHlo.after hostOps0 (W0 m ρ c))) (Proc.devRef .tc main_v6) = _
    after_results_simp <;> rfl
  v29 := norm_of (W2 m ρ c) (A7 m c) (v5_2 m ρ c) (v6_2 m ρ c) (v14_2 m ρ c)

/-- At the first region's exit. -/
theorem keeps4 : Keeps m c (W4 m ρ c) where
  a2 := (W4_of_ne m ρ c main_arg2 (by decide)).trans (keeps3 m ρ c).a2
  a3 := (W4_of_ne m ρ c main_arg3 (by decide)).trans (keeps3 m ρ c).a3
  a4 := (W4_of_ne m ρ c main_arg4 (by decide)).trans (keeps3 m ρ c).a4
  a5 := (W4_of_ne m ρ c main_arg5 (by decide)).trans (keeps3 m ρ c).a5
  a6 := (W4_of_ne m ρ c main_arg6 (by decide)).trans (keeps3 m ρ c).a6
  a8 := (W4_of_ne m ρ c main_arg8 (by decide)).trans (keeps3 m ρ c).a8
  v5 := (W4_of_ne m ρ c main_v5 (by decide)).trans (keeps3 m ρ c).v5
  v6 := (W4_of_ne m ρ c main_v6 (by decide)).trans (keeps3 m ρ c).v6
  v29 := (W4_of_ne m ρ c main_v29 (by decide)).trans (keeps3 m ρ c).v29

/-- The first region's result is the reference's first product. -/
theorem v30_4 : W4 m ρ c (Proc.devRef .tc main_v30) = val_main_v30 (F := Ideal) (A0 m c) (A1 m c) := by
  refine (W4_arr m ρ c 2).trans ((Cert.Bridge.Lin0.final (V3 m ρ) c).trans ?_)
  show val_main_v30 (F := Ideal) (W3 m ρ c (Proc.devRef .tc main_arg0)) (W3 m ρ c (Proc.devRef .tc main_arg1)) = _
  rw [a0_3 m ρ c, a1_3 m ρ c]

end Cert.Bridge.Bnd

end
-- ==== Proof.Spec.lean ====
/-
  The two functions the kernels compute, index by index over extended reals.

  `layer A b W` is one hidden layer applied to an aggregated table: entry `(i, o)` is the sum over `k` of
  `max (A (i, k) + b k) 0 · W (k, o)` — add the bias along each row, cut at zero, multiply by the weight matrix. The zero
  is kept as the float word both programs spell, so it is never evaluated.

  `score Hs Hd` is the link score of each labelled edge: the logistic function of the dot product of the edge's two
  rows, laid out as a column.
-/
import Idealize.ShloMosaic.PureOps.Ideal
import Idealize.ShloMosaic.Lib.ValueIdx

noncomputable section

namespace Cert.Bridge

open Idealize.ShloMosaic Idealize.ShloMosaic.ValueIdx

/-- One hidden layer on a table of 100000 rows of 64 features. -/
def layer (A : (⟨2, ![100000, 64]⟩ : Shape).Idx → EReal) (b : (⟨1, ![64]⟩ : Shape).Idx → EReal)
    (W : (⟨2, ![64, 64]⟩ : Shape).Idx → EReal) : (⟨2, ![100000, 64]⟩ : Shape).Idx → EReal :=
  fun i => ∑ k : Fin 64, max (A (ix2 (⟨(i 0).val, (i 0).isLt⟩ : Fin 100000) k) + b (ix1 k)) (Ideal.ofBits .f32 0x00000000#32)
    * W (ix2 k (⟨(i 1).val, (i 1).isLt⟩ : Fin 64))

/-- The logistic of each row's dot product, as a column. -/
def score (Hs Hd : (⟨2, ![1000000, 64]⟩ : Shape).Idx → EReal) : (⟨2, ![1000000, 1]⟩ : Shape).Idx → EReal :=
  fun i => Ideal.logistic (∑ k : Fin 64, Hs (ix2 (⟨(i 0).val, (i 0).isLt⟩ : Fin 1000000) k)
    * Hd (ix2 (⟨(i 0).val, (i 0).isLt⟩ : Fin 1000000) k))

end Cert.Bridge

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.Lin1.lean ====
/-
  A hidden layer, region by region.

  The kernel takes ten blocks of 10000 rows of the aggregated table, adds the bias row (one row of 64, copied down the
  block), cuts at zero, narrows to bf16 (the identity on extended reals) and multiplies by the whole 64 × 64 weight
  matrix into a zero block. Block `t` of the result holds at `(q, o)` the sum over `k` of
  `max (A (t·10000 + q, k) + b k) 0 · W (k, o)`: entry `(t·10000 + q, o)` of the layer applied to the whole table. The ten
  blocks tile the rows, so after the region the result array is the layer of the table.
-/
import proofs.«131875_j62371515072932_1_alg».proof.Proof.Gen.KernelIdeal.Frame
import proofs.«131875_j62371515072932_1_alg».proof.Proof.Spec
import proofs.«131875_j62371515072932_1_alg».proof.Proof.LibPlainMatmul
import proofs.«131875_j62371515072932_1_alg».proof.Proof.LibRowLayout
import Idealize.ShloMosaic.Lib.Pipeline.Value
import Idealize.ShloMosaic.Lib.ValueIdx
import Idealize.ShloMosaic.PureOps.Ideal.Laws

set_option maxRecDepth 16384

noncomputable section

namespace Cert.Bridge.Lin1

open Idealize.ShloMosaic Idealize.ShloMosaic.TcCoe Idealize.ShloMosaic.ValueIdx Idealize.SL.Sem
open Cert.KernelIdeal Cert.KernelIdeal.Gen

theorem hz : (![0, 0] : Fin 2 → Nat) = fun _ => 0 := funext fun a => by fin_cases a <;> rfl

/-- The block's result at row `q`, column `o`. -/
theorem pay_apply (x0 : Vec Ideal S10000x64 .f32) (b : Vec Ideal S1x64 .f32) (w : Vec Ideal S64x64 .f32)
    (q : Fin 10000) (o : Fin 64) :
    k1_pay1 (F := Ideal) x0 b w (ix2 q o)
      = ∑ c : Fin 64, max (x0 (ix2 q c) + b (ix2 (0 : Fin 1) c)) (Ideal.ofBits .f32 0x00000000#32) * w (ix2 c o) := by
  unfold k1_pay1
  refine (Cert.PointConv.plainMatmul_zero_apply (R := 10000) (n := 64) (k := 64)
    dot_S10000x64_S64x64_S10000x64_1_0_0_1_n_n.wf none _ _ q o).trans ?_
  refine Finset.sum_congr rfl fun c _ => ?_
  show max (shapeCast S10000x64 x0 shapeCasts_S10000x64_S10000x64 (ix2 q c)
      + broadcastTo S10000x64 (shapeCast S1x64 b shapeCasts_S1x64_S1x64) broadcasts_S1x64_S10000x64 (ix2 q c))
      (Ideal.ofBits .f32 0x00000000#32) * w (ix2 c o) = _
  rw [shapeCast_self, Idealize.ShloMosaic.RowLayout.rowBroadcast_apply, shapeCast_self]

/-- One entry of a block's result is the layer's entry `p·10000` rows further down, when the table's block is rows
    `p·10000 …` of `A`, the bias block is the row `bv` and the weight block is the whole matrix. -/
theorem point (x0 : Vec Ideal S10000x64 .f32) (b : Vec Ideal S1x64 .f32) (w : Vec Ideal S64x64 .f32)
    (A : S100000x64.Idx → EReal) (bv : S64.Idx → EReal) (W : S64x64.Idx → EReal)
    (j : S10000x64.Idx) (i : S100000x64.Idx) (p : ℕ)
    (h0 : (i 0).val = p * 10000 + (j 0).val) (h1 : (i 1).val = (j 1).val)
    (hx0 : ∀ (y : S10000x64.Idx) (i' : S100000x64.Idx), (i' 0).val = p * 10000 + (y 0).val → (i' 1).val = (y 1).val →
      x0 y = A i')
    (hb : ∀ k : Fin 64, b (ix2 (0 : Fin 1) k) = bv (ix1 k))
    (hw : ∀ y : S64x64.Idx, w y = W y) :
    k1_pay1 (F := Ideal) x0 b w j = Cert.Bridge.layer A bv W i := by
  obtain ⟨q, o, rfl⟩ : ∃ (q : Fin 10000) (o : Fin 64), j = ix2 q o := ⟨j 0, j 1, eq_ix2 j⟩
  rw [pay_apply]
  unfold Cert.Bridge.layer
  refine Finset.sum_congr rfl fun k _ => ?_
  rw [hx0 (ix2 q k) (ix2 (⟨(i 0).val, (i 0).isLt⟩ : Fin 100000) k) h0 rfl, hb, hw]
  have ho : o = (⟨(i 1).val, (i 1).isLt⟩ : Fin 64) := Fin.ext h1.symm
  rw [ho]

/-- The printed index maps over the ten points: the table's and the result's blocks move down with the point, the
    bias's and the weight's stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the layer of the arrays the region finds. -/
theorem flushed_eq (c : Dev nD) (bv : S64.Idx → EReal) (hB : ∀ k : Fin 64, V c main_v44 (ix2 (0 : Fin 1) k) = bv (ix1 k))
    (t : Fin cfg1.N) :
    (dat1 (F := Ideal) V c).flushed 3 t = ((cfg1.win 3).blk t).view.read (Elt Ideal)
      (Cert.Bridge.layer (V c main_v43) bv (V c main_arg3)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext j
  show k1_pay1 (iblk1 V c 0 t) (iblk1 V c 1 t) (iblk1 V c 2 t) j
    = Cert.Bridge.layer (V c main_v43) bv (V c main_arg3) (((cfg1.win 3).blk t).view.emb j)
  refine point (iblk1 V c 0 t) (iblk1 V c 1 t) (iblk1 V c 2 t) (V c main_v43) bv (V c main_arg3) j
    (((cfg1.win 3).blk t).view.emb j) t.val ?_ ?_ ?_ ?_ ?_
  · show win1_3.index t (0 : Fin 2) * 10000 + 1 * (j 0).val = t.val * 10000 + (j 0).val; omega
  · show win1_3.index t (1 : Fin 2) * 64 + 1 * (j 1).val = (j 1).val; omega
  · intro y i' hy0 hy1
    show V c main_v43 (((cfg1.win 0).blk t).view.emb y) = V c main_v43 i'
    refine congrArg _ (funext fun a => Fin.ext ?_)
    match a with
    | ⟨0, _⟩ => show win1_0.index t (0 : Fin 2) * 10000 + 1 * (y 0).val = (i' 0).val; omega
    | ⟨1, _⟩ => show win1_0.index t (1 : Fin 2) * 64 + 1 * (y 1).val = (i' 1).val; omega
  · intro k
    refine Eq.trans ?_ (hB k)
    show V c main_v44 (((cfg1.win 1).blk t).view.emb (ix2 (0 : Fin 1) k)) = V c main_v44 (ix2 (0 : Fin 1) k)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro y
    show V c main_arg3 (((cfg1.win 2).blk t).view.emb y) = V c main_arg3 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega

/-- An index is in point `t`'s block of the result iff each coordinate is in the block's range. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- Row `r` of the result is in the block of point `r / 10000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨e0, e1, e2, e3, e4, e5, e6, e7⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- After the region the result array is the layer of the table, the bias row and the weight as the region found them. -/
theorem final (c : Dev nD) (bv : S64.Idx → EReal) (hB : ∀ k : Fin 64, V c main_v44 (ix2 (0 : Fin 1) k) = bv (ix1 k)) :
    (dat1 (F := Ideal) V c).arrAt 3 cfg1.N = Cert.Bridge.layer (V c main_v43) bv (V c main_arg3) :=
  (dat1 V c).arrAt_eq_of_cover 3 _ (fun t _ => flushed_eq V c bv hB t) cover

end Cert.Bridge.Lin1

end
-- ==== Proof.RefSide.lean ====
/-
  The reference's stages as the layer and the score.

  In the reference a hidden layer is spelt as five host operations — the bias broadcast to a row and down the table,
  an addition, a maximum against a broadcast zero, a matrix product —; read at an index they are the `layer` of the
  aggregated table. Its last seven operations — a row sum of the products of the two gathered tables, negate,
  exponential, one plus, one over — are, at an index, the logistic of the row's dot product: the `score`.
-/
import proofs.«131875_j62371515072932_1_alg».proof.Proof.RefRead
import proofs.«131875_j62371515072932_1_alg».proof.Proof.Spec

set_option maxRecDepth 16384

noncomputable section

namespace Cert.Bridge.RefSide

open Idealize.ShloMosaic Idealize.ShloMosaic.ValueIdx
open Cert.ReferenceIdeal Cert.ReferenceIdeal.Read

/-- The float word of 1.0 denotes the number one. -/
theorem ofBits_one : Ideal.ofBits .f32 0x3F800000#32 = 1 := by
  simp [Ideal.ofBits, Ideal.ieee, -EReal.coe_mul]; norm_num

/-- The second layer's product is the layer of the first aggregate. -/
theorem v48_eq (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x7 : (⟨S2x3200000, .i32⟩ : BufTy).Contents (Elt Ideal)) :
    val_main_v48 (F := Ideal) x0 x1 x2 x3 x7 = Cert.Bridge.layer (val_main_v43 (F := Ideal) x0 x1 x7) x2 x3 := by
  funext i
  rw [val_main_v48_apply]
  unfold Cert.Bridge.layer
  refine Finset.sum_congr rfl fun k _ => ?_
  rw [val_main_v47_apply, val_main_v46_apply, val_main_v45_apply, val_main_v44_apply, val_main_call1_v0_apply,
    val_main_call1_cst_apply]
  have e1 : lidx_main_v48 i k = ix2 (⟨(i 0).val, (i 0).isLt⟩ : Fin 100000) k :=
    funext fun a => Fin.ext (by match a with | ⟨0, _⟩ => rfl | ⟨1, _⟩ => rfl)
  have e2 : idx_main_v44 (idx_main_v45 (lidx_main_v48 i k)) = ix1 k :=
    funext fun a => Fin.ext (by match a with | ⟨0, _⟩ => rfl)
  have e3 : ridx_main_v48 i k = ix2 k (⟨(i 1).val, (i 1).isLt⟩ : Fin 64) :=
    funext fun a => Fin.ext (by match a with | ⟨0, _⟩ => rfl | ⟨1, _⟩ => rfl)
  rw [e2, e3, e1]
  rfl

/-- The third layer's product is the layer of the second aggregate. -/
theorem v66_eq (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x7 : (⟨S2x3200000, .i32⟩ : BufTy).Contents (Elt Ideal)) :
    val_main_v66 (F := Ideal) x0 x1 x2 x3 x4 x5 x7
      = Cert.Bridge.layer (val_main_v61 (F := Ideal) x0 x1 x2 x3 x7) x4 x5 := by
  funext i
  rw [val_main_v66_apply]
  unfold Cert.Bridge.layer
  refine Finset.sum_congr rfl fun k _ => ?_
  rw [val_main_v65_apply, val_main_v64_apply, val_main_v63_apply, val_main_v62_apply, val_main_call2_v0_apply,
    val_main_call2_cst_apply]
  have e1 : lidx_main_v66 i k = ix2 (⟨(i 0).val, (i 0).isLt⟩ : Fin 100000) k :=
    funext fun a => Fin.ext (by match a with | ⟨0, _⟩ => rfl | ⟨1, _⟩ => rfl)
  have e2 : idx_main_v62 (idx_main_v63 (lidx_main_v66 i k)) = ix1 k :=
    funext fun a => Fin.ext (by match a with | ⟨0, _⟩ => rfl)
  have e3 : ridx_main_v66 i k = ix2 k (⟨(i 1).val, (i 1).isLt⟩ : Fin 64) :=
    funext fun a => Fin.ext (by match a with | ⟨0, _⟩ => rfl | ⟨1, _⟩ => rfl)
  rw [e2, e3, e1]
  rfl

/-- The reference's result at edge `i` is the score column's entry `(i, 0)`. -/
theorem v108_apply (x0 : (⟨S100000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x3200000, .i32⟩ : BufTy).Contents (Elt Ideal)) (x8 : (⟨S2x1000000, .i32⟩ : BufTy).Contents (Elt Ideal)) (i : S1000000.Idx) :
    val_main_v108 (F := Ideal) x0 x1 x2 x3 x4 x5 x6 x7 x8 i
      = Cert.Bridge.score (val_main_v91 (F := Ideal) x0 x1 x2 x3 x4 x5 x6 x7 x8) (val_main_v100 (F := Ideal) x0 x1 x2 x3 x4 x5 x6 x7 x8)
          (ix2 (⟨(i 0).val, (i 0).isLt⟩ : Fin 1000000) (0 : Fin 1)) := by
  rw [val_main_v108_apply, val_main_v107_apply, val_main_cst_21_apply, val_main_v106_apply, val_main_v105_apply,
    val_main_cst_20_apply, val_main_v104_apply, val_main_v103_apply, val_main_v102_apply, val_main_cst_19_apply]
  unfold Cert.Bridge.score
  simp only [Ideal.ofBits_def, Ideal.hostDivf_def, Ideal.addf_def, Ideal.hostUnary_exp_def, Ideal.hostNegf_def,
    Ideal.negf_def, Ideal.logistic]
  rw [ofBits_one, Ideal.ofBits_zero_f32, zero_add]
  refine congrArg (fun s => Ideal.div 1 (1 + Ideal.exp (-s))) (Finset.sum_congr rfl fun k _ => ?_)
  rw [val_main_v101_apply]
  have e : idx_main_v102 i k = ix2 (⟨(i 0).val, (i 0).isLt⟩ : Fin 1000000) k :=
    funext fun a => Fin.ext (by match a with | ⟨0, _⟩ => rfl | ⟨1, _⟩ => rfl)
  rw [e]
  rfl

end Cert.Bridge.RefSide

end
-- ==== Proof.Bnd5.lean ====
/-
  The second layer: the host aggregates the first product along the edges, and the second region applies bias, cut at zero
  and the second weight. Both steps are the reference's, stage for stage.
-/
import proofs.«131875_j62371515072932_1_alg».proof.Proof.Bnd3
import proofs.«131875_j62371515072932_1_alg».proof.Proof.Lin1
import proofs.«131875_j62371515072932_1_alg».proof.Proof.RefSide
import proofs.«131875_j62371515072932_1_alg».proof.Proof.LibRowLayout
import Idealize.ShloMosaic.Lib.StableHlo.Run

-- the host operations' results at a buffer are read off the fold by evaluation, one level per operation
set_option maxRecDepth 65536
set_option maxHeartbeats 2000000

noncomputable section

namespace Cert.Bridge.Bnd

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v5 val_main_v6 val_main_v29 val_main_v30 val_main_v43 val_main_v48 val_main_v61
  val_main_v66 val_main_v82 val_main_v91 val_main_v100 val_main_v108)

variable (m : (ℓ : Loc nD τ sig) → Buf (Elt Ideal) ℓ) (ρ : Dev nD → PrngReg) (c : Dev nD)

/-- At the region's entry, after the host's aggregation. -/
theorem keeps5 : Keeps m c (W5 m ρ c) where
  a2 := by
    show StableHlo.after hostOps1 (W4 m ρ c) (Proc.devRef .tc main_arg2) = _
    after_results_simp
    exact (keeps4 m ρ c).a2
  a3 := by
    show StableHlo.after hostOps1 (W4 m ρ c) (Proc.devRef .tc main_arg3) = _
    after_results_simp
    exact (keeps4 m ρ c).a3
  a4 := by
    show StableHlo.after hostOps1 (W4 m ρ c) (Proc.devRef .tc main_arg4) = _
    after_results_simp
    exact (keeps4 m ρ c).a4
  a5 := by
    show StableHlo.after hostOps1 (W4 m ρ c) (Proc.devRef .tc main_arg5) = _
    after_results_simp
    exact (keeps4 m ρ c).a5
  a6 := by
    show StableHlo.after hostOps1 (W4 m ρ c) (Proc.devRef .tc main_arg6) = _
    after_results_simp
    exact (keeps4 m ρ c).a6
  a8 := by
    show StableHlo.after hostOps1 (W4 m ρ c) (Proc.devRef .tc main_arg8) = _
    after_results_simp
    exact (keeps4 m ρ c).a8
  v5 := by
    show StableHlo.after hostOps1 (W4 m ρ c) (Proc.devRef .tc main_v5) = _
    after_results_simp
    exact (keeps4 m ρ c).v5
  v6 := by
    show StableHlo.after hostOps1 (W4 m ρ c) (Proc.devRef .tc main_v6) = _
    after_results_simp
    exact (keeps4 m ρ c).v6
  v29 := by
    show StableHlo.after hostOps1 (W4 m ρ c) (Proc.devRef .tc main_v29) = _
    after_results_simp
    exact (keeps4 m ρ c).v29

/-- The aggregate the host leaves for the region is the reference's: gather the source rows of the previous layer's
    product, scale each by its edge's normalisation, add into the target rows. -/
theorem v43_5 : W5 m ρ c (Proc.devRef .tc main_v43) = val_main_v43 (F := Ideal) (A0 m c) (A1 m c) (A7 m c) := by
  show StableHlo.after hostOps1 (W4 m ρ c) (Proc.devRef .tc main_v43) = _
  after_results_simp
  rw [(keeps4 m ρ c).v5, (keeps4 m ρ c).v6, (keeps4 m ρ c).v29, v30_4 m ρ c]
  rfl

/-- The bias, reshaped to one row for the region, read at `(0, k)`. -/
theorem v44_5 (k : Fin 64) :
    W5 m ρ c (Proc.devRef .tc main_v44) (ix2 (0 : Fin 1) k) = A2 m c (ix1 k) := by
  show StableHlo.after hostOps1 (W4 m ρ c) (Proc.devRef .tc main_v44) (ix2 (0 : Fin 1) k) = _
  after_results_simp
  rw [(keeps4 m ρ c).a2]
  exact (congrFun (Idealize.ShloMosaic.RowLayout.rowLayout (A2 m c) shapeCasts_S64_S1x64 bcast_S64_S1x64_1)
      (ix2 (0 : Fin 1) k)).trans
    (Idealize.ShloMosaic.RowLayout.rowOfVector_apply (A2 m c) bcast_S64_S1x64_1 (0 : Fin 1) k)

/-- At the region's exit. -/
theorem keeps6 : Keeps m c (W6 m ρ c) where
  a2 := (W6_of_ne m ρ c main_arg2 (by decide)).trans (keeps5 m ρ c).a2
  a3 := (W6_arr m ρ c 2).trans ((((dat1 (V5 m ρ) c).arrAt_in 2 rfl _).trans (A_eq1 (V5 m ρ) c 2)).trans
    (keeps5 m ρ c).a3)
  a4 := (W6_of_ne m ρ c main_arg4 (by decide)).trans (keeps5 m ρ c).a4
  a5 := (W6_of_ne m ρ c main_arg5 (by decide)).trans (keeps5 m ρ c).a5
  a6 := (W6_of_ne m ρ c main_arg6 (by decide)).trans (keeps5 m ρ c).a6
  a8 := (W6_of_ne m ρ c main_arg8 (by decide)).trans (keeps5 m ρ c).a8
  v5 := (W6_of_ne m ρ c main_v5 (by decide)).trans (keeps5 m ρ c).v5
  v6 := (W6_of_ne m ρ c main_v6 (by decide)).trans (keeps5 m ρ c).v6
  v29 := (W6_of_ne m ρ c main_v29 (by decide)).trans (keeps5 m ρ c).v29

/-- The region's result is the reference's next product. -/
theorem v45_6 : W6 m ρ c (Proc.devRef .tc main_v45) = val_main_v48 (F := Ideal) (A0 m c) (A1 m c) (A2 m c) (A3 m c) (A7 m c) := by
  refine (W6_arr m ρ c 3).trans
    ((Cert.Bridge.Lin1.final (V5 m ρ) c (A2 m c) (v44_5 m ρ c)).trans ?_)
  show Cert.Bridge.layer (W5 m ρ c (Proc.devRef .tc main_v43)) (A2 m c)
    (W5 m ρ c (Proc.devRef .tc main_arg3)) = _
  rw [v43_5 m ρ c, (keeps5 m ρ c).a3]
  exact (Cert.Bridge.RefSide.v48_eq (A0 m c) (A1 m c) (A2 m c) (A3 m c) (A7 m c)).symm

end Cert.Bridge.Bnd

end
-- ==== Proof.Lin2.lean ====
/-
  A hidden layer, region by region.

  The kernel takes ten blocks of 10000 rows of the aggregated table, adds the bias row (one row of 64, copied down the
  block), cuts at zero, narrows to bf16 (the identity on extended reals) and multiplies by the whole 64 × 64 weight
  matrix into a zero block. Block `t` of the result holds at `(q, o)` the sum over `k` of
  `max (A (t·10000 + q, k) + b k) 0 · W (k, o)`: entry `(t·10000 + q, o)` of the layer applied to the whole table. The ten
  blocks tile the rows, so after the region the result array is the layer of the table.
-/
import proofs.«131875_j62371515072932_1_alg».proof.Proof.Gen.KernelIdeal.Frame
import proofs.«131875_j62371515072932_1_alg».proof.Proof.Spec
import proofs.«131875_j62371515072932_1_alg».proof.Proof.LibPlainMatmul
import proofs.«131875_j62371515072932_1_alg».proof.Proof.LibRowLayout
import Idealize.ShloMosaic.Lib.Pipeline.Value
import Idealize.ShloMosaic.Lib.ValueIdx
import Idealize.ShloMosaic.PureOps.Ideal.Laws

set_option maxRecDepth 16384

noncomputable section

namespace Cert.Bridge.Lin2

open Idealize.ShloMosaic Idealize.ShloMosaic.TcCoe Idealize.ShloMosaic.ValueIdx Idealize.SL.Sem
open Cert.KernelIdeal Cert.KernelIdeal.Gen

theorem hz : (![0, 0] : Fin 2 → Nat) = fun _ => 0 := funext fun a => by fin_cases a <;> rfl

/-- The block's result at row `q`, column `o`. -/
theorem pay_apply (x0 : Vec Ideal S10000x64 .f32) (b : Vec Ideal S1x64 .f32) (w : Vec Ideal S64x64 .f32)
    (q : Fin 10000) (o : Fin 64) :
    k2_pay1 (F := Ideal) x0 b w (ix2 q o)
      = ∑ c : Fin 64, max (x0 (ix2 q c) + b (ix2 (0 : Fin 1) c)) (Ideal.ofBits .f32 0x00000000#32) * w (ix2 c o) := by
  unfold k2_pay1
  refine (Cert.PointConv.plainMatmul_zero_apply (R := 10000) (n := 64) (k := 64)
    dot_S10000x64_S64x64_S10000x64_1_0_0_1_n_n.wf none _ _ q o).trans ?_
  refine Finset.sum_congr rfl fun c _ => ?_
  show max (shapeCast S10000x64 x0 shapeCasts_S10000x64_S10000x64 (ix2 q c)
      + broadcastTo S10000x64 (shapeCast S1x64 b shapeCasts_S1x64_S1x64) broadcasts_S1x64_S10000x64 (ix2 q c))
      (Ideal.ofBits .f32 0x00000000#32) * w (ix2 c o) = _
  rw [shapeCast_self, Idealize.ShloMosaic.RowLayout.rowBroadcast_apply, shapeCast_self]

/-- One entry of a block's result is the layer's entry `p·10000` rows further down, when the table's block is rows
    `p·10000 …` of `A`, the bias block is the row `bv` and the weight block is the whole matrix. -/
theorem point (x0 : Vec Ideal S10000x64 .f32) (b : Vec Ideal S1x64 .f32) (w : Vec Ideal S64x64 .f32)
    (A : S100000x64.Idx → EReal) (bv : S64.Idx → EReal) (W : S64x64.Idx → EReal)
    (j : S10000x64.Idx) (i : S100000x64.Idx) (p : ℕ)
    (h0 : (i 0).val = p * 10000 + (j 0).val) (h1 : (i 1).val = (j 1).val)
    (hx0 : ∀ (y : S10000x64.Idx) (i' : S100000x64.Idx), (i' 0).val = p * 10000 + (y 0).val → (i' 1).val = (y 1).val →
      x0 y = A i')
    (hb : ∀ k : Fin 64, b (ix2 (0 : Fin 1) k) = bv (ix1 k))
    (hw : ∀ y : S64x64.Idx, w y = W y) :
    k2_pay1 (F := Ideal) x0 b w j = Cert.Bridge.layer A bv W i := by
  obtain ⟨q, o, rfl⟩ : ∃ (q : Fin 10000) (o : Fin 64), j = ix2 q o := ⟨j 0, j 1, eq_ix2 j⟩
  rw [pay_apply]
  unfold Cert.Bridge.layer
  refine Finset.sum_congr rfl fun k _ => ?_
  rw [hx0 (ix2 q k) (ix2 (⟨(i 0).val, (i 0).isLt⟩ : Fin 100000) k) h0 rfl, hb, hw]
  have ho : o = (⟨(i 1).val, (i 1).isLt⟩ : Fin 64) := Fin.ext h1.symm
  rw [ho]

/-- The printed index maps over the ten points: the table's and the result's blocks move down with the point, the
    bias's and the weight's stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the layer of the arrays the region finds. -/
theorem flushed_eq (c : Dev nD) (bv : S64.Idx → EReal) (hB : ∀ k : Fin 64, V c main_v59 (ix2 (0 : Fin 1) k) = bv (ix1 k))
    (t : Fin cfg2.N) :
    (dat2 (F := Ideal) V c).flushed 3 t = ((cfg2.win 3).blk t).view.read (Elt Ideal)
      (Cert.Bridge.layer (V c main_v58) bv (V c main_arg5)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext j
  show k2_pay1 (iblk2 V c 0 t) (iblk2 V c 1 t) (iblk2 V c 2 t) j
    = Cert.Bridge.layer (V c main_v58) bv (V c main_arg5) (((cfg2.win 3).blk t).view.emb j)
  refine point (iblk2 V c 0 t) (iblk2 V c 1 t) (iblk2 V c 2 t) (V c main_v58) bv (V c main_arg5) j
    (((cfg2.win 3).blk t).view.emb j) t.val ?_ ?_ ?_ ?_ ?_
  · show win2_3.index t (0 : Fin 2) * 10000 + 1 * (j 0).val = t.val * 10000 + (j 0).val; omega
  · show win2_3.index t (1 : Fin 2) * 64 + 1 * (j 1).val = (j 1).val; omega
  · intro y i' hy0 hy1
    show V c main_v58 (((cfg2.win 0).blk t).view.emb y) = V c main_v58 i'
    refine congrArg _ (funext fun a => Fin.ext ?_)
    match a with
    | ⟨0, _⟩ => show win2_0.index t (0 : Fin 2) * 10000 + 1 * (y 0).val = (i' 0).val; omega
    | ⟨1, _⟩ => show win2_0.index t (1 : Fin 2) * 64 + 1 * (y 1).val = (i' 1).val; omega
  · intro k
    refine Eq.trans ?_ (hB k)
    show V c main_v59 (((cfg2.win 1).blk t).view.emb (ix2 (0 : Fin 1) k)) = V c main_v59 (ix2 (0 : Fin 1) k)
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · intro y
    show V c main_arg5 (((cfg2.win 2).blk t).view.emb y) = V c main_arg5 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega

/-- An index is in point `t`'s block of the result iff each coordinate is in the block's range. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v60).slice (win2_3.rect t)).set ↔ _
  rw [View.set_slice_whole, Rect.mem_set_unit]
  exact Iff.rfl

/-- Row `r` of the result is in the block of point `r / 10000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨e0, e1, e2, e3, e4, e5, e6, e7⟩ := idx_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    omega

/-- After the region the result array is the layer of the table, the bias row and the weight as the region found them. -/
theorem final (c : Dev nD) (bv : S64.Idx → EReal) (hB : ∀ k : Fin 64, V c main_v59 (ix2 (0 : Fin 1) k) = bv (ix1 k)) :
    (dat2 (F := Ideal) V c).arrAt 3 cfg2.N = Cert.Bridge.layer (V c main_v58) bv (V c main_arg5) :=
  (dat2 V c).arrAt_eq_of_cover 3 _ (fun t _ => flushed_eq V c bv hB t) cover

end Cert.Bridge.Lin2

end
-- ==== Proof.Bnd7.lean ====
/-
  The third layer: the host aggregates the second product along the edges, and the third region applies bias, cut at zero
  and the third weight. Both steps are the reference's, stage for stage.
-/
import proofs.«131875_j62371515072932_1_alg».proof.Proof.Bnd5
import proofs.«131875_j62371515072932_1_alg».proof.Proof.Lin2
import proofs.«131875_j62371515072932_1_alg».proof.Proof.RefSide
import proofs.«131875_j62371515072932_1_alg».proof.Proof.LibRowLayout
import Idealize.ShloMosaic.Lib.StableHlo.Run

-- the host operations' results at a buffer are read off the fold by evaluation, one level per operation
set_option maxRecDepth 65536
set_option maxHeartbeats 2000000

noncomputable section

namespace Cert.Bridge.Bnd

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v5 val_main_v6 val_main_v29 val_main_v30 val_main_v43 val_main_v48 val_main_v61
  val_main_v66 val_main_v82 val_main_v91 val_main_v100 val_main_v108)

variable (m : (ℓ : Loc nD τ sig) → Buf (Elt Ideal) ℓ) (ρ : Dev nD → PrngReg) (c : Dev nD)

/-- At the region's entry, after the host's aggregation. -/
theorem keeps7 : Keeps m c (W7 m ρ c) where
  a2 := by
    show StableHlo.after hostOps2 (W6 m ρ c) (Proc.devRef .tc main_arg2) = _
    after_results_simp
    exact (keeps6 m ρ c).a2
  a3 := by
    show StableHlo.after hostOps2 (W6 m ρ c) (Proc.devRef .tc main_arg3) = _
    after_results_simp
    exact (keeps6 m ρ c).a3
  a4 := by
    show StableHlo.after hostOps2 (W6 m ρ c) (Proc.devRef .tc main_arg4) = _
    after_results_simp
    exact (keeps6 m ρ c).a4
  a5 := by
    show StableHlo.after hostOps2 (W6 m ρ c) (Proc.devRef .tc main_arg5) = _
    after_results_simp
    exact (keeps6 m ρ c).a5
  a6 := by
    show StableHlo.after hostOps2 (W6 m ρ c) (Proc.devRef .tc main_arg6) = _
    after_results_simp
    exact (keeps6 m ρ c).a6
  a8 := by
    show StableHlo.after hostOps2 (W6 m ρ c) (Proc.devRef .tc main_arg8) = _
    after_results_simp
    exact (keeps6 m ρ c).a8
  v5 := by
    show StableHlo.after hostOps2 (W6 m ρ c) (Proc.devRef .tc main_v5) = _
    after_results_simp
    exact (keeps6 m ρ c).v5
  v6 := by
    show StableHlo.after hostOps2 (W6 m ρ c) (Proc.devRef .tc main_v6) = _
    after_results_simp
    exact (keeps6 m ρ c).v6
  v29 := by
    show StableHlo.after hostOps2 (W6 m ρ c) (Proc.devRef .tc main_v29) = _
    after_results_simp
    exact (keeps6 m ρ c).v29

/-- The aggregate the host leaves for the region is the reference's: gather the source rows of the previous layer's
    product, scale each by its edge's normalisation, add into the target rows. -/
theorem v58_7 : W7 m ρ c (Proc.devRef .tc main_v58) = val_main_v61 (F := Ideal) (A0 m c) (A1 m c) (A2 m c) (A3 m c) (A7 m c) := by
  show StableHlo.after hostOps2 (W6 m ρ c) (Proc.devRef .tc main_v58) = _
  after_results_simp
  rw [(keeps6 m ρ c).v5, (keeps6 m ρ c).v6, (keeps6 m ρ c).v29, v45_6 m ρ c]
  rfl

/-- The bias, reshaped to one row for the region, read at `(0, k)`. -/
theorem v59_7 (k : Fin 64) :
    W7 m ρ c (Proc.devRef .tc main_v59) (ix2 (0 : Fin 1) k) = A4 m c (ix1 k) := by
  show StableHlo.after hostOps2 (W6 m ρ c) (Proc.devRef .tc main_v59) (ix2 (0 : Fin 1) k) = _
  after_results_simp
  rw [(keeps6 m ρ c).a4]
  exact (congrFun (Idealize.ShloMosaic.RowLayout.rowLayout (A4 m c) shapeCasts_S64_S1x64 bcast_S64_S1x64_1)
      (ix2 (0 : Fin 1) k)).trans
    (Idealize.ShloMosaic.RowLayout.rowOfVector_apply (A4 m c) bcast_S64_S1x64_1 (0 : Fin 1) k)

/-- At the region's exit. -/
theorem keeps8 : Keeps m c (W8 m ρ c) where
  a2 := (W8_of_ne m ρ c main_arg2 (by decide)).trans (keeps7 m ρ c).a2
  a3 := (W8_of_ne m ρ c main_arg3 (by decide)).trans (keeps7 m ρ c).a3
  a4 := (W8_of_ne m ρ c main_arg4 (by decide)).trans (keeps7 m ρ c).a4
  a5 := (W8_arr m ρ c 2).trans ((((dat2 (V7 m ρ) c).arrAt_in 2 rfl _).trans (A_eq2 (V7 m ρ) c 2)).trans
    (keeps7 m ρ c).a5)
  a6 := (W8_of_ne m ρ c main_arg6 (by decide)).trans (keeps7 m ρ c).a6
  a8 := (W8_of_ne m ρ c main_arg8 (by decide)).trans (keeps7 m ρ c).a8
  v5 := (W8_of_ne m ρ c main_v5 (by decide)).trans (keeps7 m ρ c).v5
  v6 := (W8_of_ne m ρ c main_v6 (by decide)).trans (keeps7 m ρ c).v6
  v29 := (W8_of_ne m ρ c main_v29 (by decide)).trans (keeps7 m ρ c).v29

/-- The region's result is the reference's next product. -/
theorem v60_8 : W8 m ρ c (Proc.devRef .tc main_v60) = val_main_v66 (F := Ideal) (A0 m c) (A1 m c) (A2 m c) (A3 m c) (A4 m c) (A5 m c) (A7 m c) := by
  refine (W8_arr m ρ c 3).trans
    ((Cert.Bridge.Lin2.final (V7 m ρ) c (A4 m c) (v59_7 m ρ c)).trans ?_)
  show Cert.Bridge.layer (W7 m ρ c (Proc.devRef .tc main_v58)) (A4 m c)
    (W7 m ρ c (Proc.devRef .tc main_arg5)) = _
  rw [v58_7 m ρ c, (keeps7 m ρ c).a5]
  exact (Cert.Bridge.RefSide.v66_eq (A0 m c) (A1 m c) (A2 m c) (A3 m c) (A4 m c) (A5 m c) (A7 m c)).symm

end Cert.Bridge.Bnd

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.Score.lean ====
/-
  The link scores, region by region.

  The last kernel takes 250 blocks of 4000 labelled edges; for each edge it multiplies the two gathered rows of 64
  features entry by entry, sums along the row, lays the 4000 sums out as a column and applies the logistic function.
  Block `t` of the result holds at row `q` the logistic of the dot product of rows `t·4000 + q` of the two tables, which
  is entry `t·4000 + q` of the score column of the whole tables. The 250 blocks tile the column.
-/
import proofs.«131875_j62371515072932_1_alg».proof.Proof.Gen.KernelIdeal.Frame
import proofs.«131875_j62371515072932_1_alg».proof.Proof.Spec
import proofs.«131875_j62371515072932_1_alg».proof.Proof.LibRowForms
import proofs.«131875_j62371515072932_1_alg».proof.Proof.LibColumnForms
import Idealize.ShloMosaic.Lib.Pipeline.Value
import Idealize.ShloMosaic.Lib.ValueIdx
import Idealize.ShloMosaic.PureOps.Ideal.Laws

set_option maxRecDepth 16384

noncomputable section

namespace Cert.Bridge.Score

open Idealize.ShloMosaic Idealize.ShloMosaic.TcCoe Idealize.ShloMosaic.ValueIdx Idealize.SL.Sem
open Cert.KernelIdeal Cert.KernelIdeal.Gen

theorem hz : (![0, 0] : Fin 2 → Nat) = fun _ => 0 := funext fun a => by fin_cases a <;> rfl

/-- The block's result at row `q`: the logistic of the two rows' dot product. -/
theorem pay_apply (x0 x1 : Vec Ideal S4000x64 .f32) (q : Fin 4000) (u : Fin 1) :
    k3_pay1 (F := Ideal) x0 x1 (ix2 q u) = Ideal.logistic (∑ k : Fin 64, x0 (ix2 q k) * x1 (ix2 q k)) := by
  unfold k3_pay1
  show Ideal.logistic (shapeCast S4000x1 (multiReduction (F := Ideal) .add [1] S4000
      (mulf (shapeCast S4000x64 x0 shapeCasts_S4000x64_S4000x64) (shapeCast S4000x64 x1 shapeCasts_S4000x64_S4000x64))
      0x00000000#32 reduces_S4000x64_S4000 (.inl rfl) rfl) shapeCasts_S4000_S4000x1 (ix2 q u)) = _
  refine congrArg Ideal.logistic ?_
  refine (Cert.ColumnForms.shapeCast_a_a1_apply _ shapeCasts_S4000_S4000x1 q u).trans ?_
  refine (Cert.RowForms.multiReduction_add_rows _ reduces_S4000x64_S4000 q).trans ?_
  refine Finset.sum_congr rfl fun k _ => ?_
  show shapeCast S4000x64 x0 shapeCasts_S4000x64_S4000x64 (ix2 q k)
    * shapeCast S4000x64 x1 shapeCasts_S4000x64_S4000x64 (ix2 q k) = _
  rw [shapeCast_self, shapeCast_self]

/-- One entry of a block's result is the score column's entry `p·4000` rows further down, when the two blocks are rows
    `p·4000 …` of the two tables. -/
theorem point (x0 x1 : Vec Ideal S4000x64 .f32) (Hs Hd : S1000000x64.Idx → EReal)
    (j : S4000x1.Idx) (i : S1000000x1.Idx) (p : ℕ)
    (h0 : (i 0).val = p * 4000 + (j 0).val)
    (hx0 : ∀ (y : S4000x64.Idx) (i' : S1000000x64.Idx), (i' 0).val = p * 4000 + (y 0).val → (i' 1).val = (y 1).val →
      x0 y = Hs i')
    (hx1 : ∀ (y : S4000x64.Idx) (i' : S1000000x64.Idx), (i' 0).val = p * 4000 + (y 0).val → (i' 1).val = (y 1).val →
      x1 y = Hd i') :
    k3_pay1 (F := Ideal) x0 x1 j = Cert.Bridge.score Hs Hd i := by
  obtain ⟨q, u, rfl⟩ : ∃ (q : Fin 4000) (u : Fin 1), j = ix2 q u := ⟨j 0, j 1, eq_ix2 j⟩
  rw [pay_apply]
  unfold Cert.Bridge.score
  refine congrArg Ideal.logistic (Finset.sum_congr rfl fun k _ => ?_)
  rw [hx0 (ix2 q k) (ix2 (⟨(i 0).val, (i 0).isLt⟩ : Fin 1000000) k) h0 rfl,
    hx1 (ix2 q k) (ix2 (⟨(i 0).val, (i 0).isLt⟩ : Fin 1000000) k) h0 rfl]

/-- The printed index maps over the 250 points: all three blocks move down with the point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the score column of the tables the region finds. -/
theorem flushed_eq (c : Dev nD) (t : Fin cfg3.N) :
    (dat3 (F := Ideal) V c).flushed 2 t = ((cfg3.win 2).blk t).view.read (Elt Ideal)
      (Cert.Bridge.score (V c main_v87) (V c main_v94)) := by
  show (cfg3.win 2).cut (grid3.coords t) ((dat3 V c).after 2 t) = _
  rw [after3_2]
  unfold out3_2
  rw [View.canon_unit_zero hz]
  simp only [View.ld_unit_zero (S := S4000x64) hz]
  obtain ⟨e0, e1, e2, e3, e4, e5⟩ := idx_facts t
  funext j
  show k3_pay1 (iblk3 V c 0 t) (iblk3 V c 1 t) j
    = Cert.Bridge.score (V c main_v87) (V c main_v94) (((cfg3.win 2).blk t).view.emb j)
  refine point (iblk3 V c 0 t) (iblk3 V c 1 t) (V c main_v87) (V c main_v94) j
    (((cfg3.win 2).blk t).view.emb j) t.val ?_ ?_ ?_
  · show win3_2.index t (0 : Fin 2) * 4000 + 1 * (j 0).val = t.val * 4000 + (j 0).val; omega
  · intro y i' hy0 hy1
    show V c main_v87 (((cfg3.win 0).blk t).view.emb y) = V c main_v87 i'
    refine congrArg _ (funext fun a => Fin.ext ?_)
    match a with
    | ⟨0, _⟩ => show win3_0.index t (0 : Fin 2) * 4000 + 1 * (y 0).val = (i' 0).val; omega
    | ⟨1, _⟩ => show win3_0.index t (1 : Fin 2) * 64 + 1 * (y 1).val = (i' 1).val; omega
  · intro y i' hy0 hy1
    show V c main_v94 (((cfg3.win 1).blk t).view.emb y) = V c main_v94 i'
    refine congrArg _ (funext fun a => Fin.ext ?_)
    match a with
    | ⟨0, _⟩ => show win3_1.index t (0 : Fin 2) * 4000 + 1 * (y 0).val = (i' 0).val; omega
    | ⟨1, _⟩ => show win3_1.index t (1 : Fin 2) * 64 + 1 * (y 1).val = (i' 1).val; omega

/-- An index is in point `t`'s block of the column iff each coordinate is in the block's range. -/
theorem mem_blk (t : Fin cfg3.N) (i : S1000000x1.Idx) :
    i ∈ ((cfg3.win 2).blk t).view.set ↔ ∀ a : Fin 2, win3_2.index t a * S4000x1.size a ≤ (i a).val
      ∧ (i a).val < win3_2.index t a * S4000x1.size a + S4000x1.size a := by
  show i ∈ ((View.whole main_v95).slice (win3_2.rect t)).set ↔ _
  rw [View.set_slice_whole, Rect.mem_set_unit]
  exact Iff.rfl

/-- Row `r` of the column is in the block of point `r / 4000`. -/
theorem cover (i : S1000000x1.Idx) :
    ∃ t : Fin cfg3.N, (cfg3.win 2).flush t = true ∧ i ∈ ((cfg3.win 2).blk t).view.set := by
  have hi0 : (i 0).val < 1000000 := (i 0).isLt
  have hi1 : (i 1).val < 1 := (i 1).isLt
  have hN : cfg3.N = 250 := N_3
  have ht : (i 0).val / 4000 < cfg3.N := by rw [hN]; omega
  obtain ⟨e0, e1, e2, e3, e4, e5⟩ := idx_facts ⟨(i 0).val / 4000, ht⟩
  refine ⟨⟨(i 0).val / 4000, ht⟩, flush3_2 _, ?_⟩
  rw [mem_blk]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ (1 : Fin 2) * 1 ≤ (i 1).val
      ∧ (i 1).val < win3_2.index ⟨(i 0).val / 4000, ht⟩ (1 : Fin 2) * 1 + 1
    omega

/-- After the region the result column is the score column of the two tables as the region found them. -/
theorem final (c : Dev nD) : (dat3 (F := Ideal) V c).arrAt 2 cfg3.N
    = Cert.Bridge.score (V c main_v87) (V c main_v94) :=
  (dat3 V c).arrAt_eq_of_cover 2 _ (fun t _ => flushed_eq V c t) cover

end Cert.Bridge.Score

end
-- ==== Proof.Bnd9.lean ====
/-
  The end of the kernel's program: the host aggregates the third product, adds the last bias and gathers the two rows
  of every labelled edge — the reference's stages again —; the last region takes the logistic of each pair's dot
  product into a column, and the host reads the column as a vector. Entry `i` of that vector is the reference's result
  at `i`.
-/
import proofs.«131875_j62371515072932_1_alg».proof.Proof.Bnd7
import proofs.«131875_j62371515072932_1_alg».proof.Proof.Score
import proofs.«131875_j62371515072932_1_alg».proof.Proof.RefSide
import Idealize.ShloMosaic.Lib.StableHlo.Run

-- the host operations' results at a buffer are read off the fold by evaluation, one level per operation
set_option maxRecDepth 65536
set_option maxHeartbeats 2000000

noncomputable section

namespace Cert.Bridge.Bnd

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v5 val_main_v6 val_main_v29 val_main_v30 val_main_v43 val_main_v48 val_main_v61
  val_main_v66 val_main_v82 val_main_v91 val_main_v100 val_main_v108)

variable (m : (ℓ : Loc nD τ sig) → Buf (Elt Ideal) ℓ) (ρ : Dev nD → PrngReg) (c : Dev nD)

/-- The source rows of the labelled edges. -/
theorem v87_9 : W9 m ρ c (Proc.devRef .tc main_v87) = val_main_v91 (F := Ideal) (A0 m c) (A1 m c) (A2 m c) (A3 m c) (A4 m c) (A5 m c) (A6 m c) (A7 m c) (A8 m c) := by
  show StableHlo.after hostOps3 (W8 m ρ c) (Proc.devRef .tc main_v87) = _
  after_results_simp
  rw [(keeps8 m ρ c).v5, (keeps8 m ρ c).v6, (keeps8 m ρ c).v29, (keeps8 m ρ c).a6, (keeps8 m ρ c).a8, v60_8 m ρ c]
  rfl

/-- The target rows of the labelled edges. -/
theorem v94_9 : W9 m ρ c (Proc.devRef .tc main_v94) = val_main_v100 (F := Ideal) (A0 m c) (A1 m c) (A2 m c) (A3 m c) (A4 m c) (A5 m c) (A6 m c) (A7 m c) (A8 m c) := by
  show StableHlo.after hostOps3 (W8 m ρ c) (Proc.devRef .tc main_v94) = _
  after_results_simp
  rw [(keeps8 m ρ c).v5, (keeps8 m ρ c).v6, (keeps8 m ρ c).v29, (keeps8 m ρ c).a6, (keeps8 m ρ c).a8, v60_8 m ρ c]
  rfl

/-- The last region's column is the score column of the reference's two gathered tables. -/
theorem v95_10 : W10 m ρ c (Proc.devRef .tc main_v95)
    = Cert.Bridge.score (val_main_v91 (F := Ideal) (A0 m c) (A1 m c) (A2 m c) (A3 m c) (A4 m c) (A5 m c) (A6 m c) (A7 m c) (A8 m c)) (val_main_v100 (F := Ideal) (A0 m c) (A1 m c) (A2 m c) (A3 m c) (A4 m c) (A5 m c) (A6 m c) (A7 m c) (A8 m c)) := by
  refine (W10_arr m ρ c 2).trans ((Cert.Bridge.Score.final (V9 m ρ) c).trans ?_)
  show Cert.Bridge.score (W9 m ρ c (Proc.devRef .tc main_v87)) (W9 m ρ c (Proc.devRef .tc main_v94)) = _
  rw [v87_9 m ρ c, v94_9 m ρ c]

/-- A column of `a` entries read as a vector: entry `i` is the column's `(i, 0)`. -/
theorem column_as_vector {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The kernel's result is the reference's last stage of the arguments. -/
theorem v96_11 : W11 m ρ c (Proc.devRef .tc main_v96) = val_main_v108 (F := Ideal) (A0 m c) (A1 m c) (A2 m c) (A3 m c) (A4 m c) (A5 m c) (A6 m c) (A7 m c) (A8 m c) := by
  funext i
  obtain ⟨r, rfl⟩ : ∃ r : Fin 1000000, i = ix1 r := ⟨i 0, eq_ix1 i⟩
  show StableHlo.after hostOps4 (W10 m ρ c) (Proc.devRef .tc main_v96) (ix1 r) = _
  after_results_simp
  rw [v95_10 m ρ c]
  refine (column_as_vector _ shapeCasts_S1000000x1_S1000000 r).trans ?_
  exact (Cert.Bridge.RefSide.v108_apply (A0 m c) (A1 m c) (A2 m c) (A3 m c) (A4 m c) (A5 m c) (A6 m c) (A7 m c) (A8 m c) (ix1 r)).symm

end Cert.Bridge.Bnd

end
-- ==== Proof.lean ====
/-
  A three-layer graph convolution with dot-product link scores: the Pallas program against its jnp reference, over the
  extended reals.

  Both programs compute, from the edge list, the edges with one self loop per node appended and the symmetric
  normalisation `d(src)^(-1/2) · d(dst)^(-1/2)` of each edge; then three times: a linear map of the node table, the rows
  of the result gathered at the edges' sources, scaled by the normalisation and added into the rows of the edges'
  targets, plus a bias, cut at zero between the layers; finally, for every labelled edge, the logistic function of the
  dot product of its two end nodes' rows.

  The Pallas program runs the three linear maps and the scoring as four kernels, each over blocks of rows, and leaves
  the gathers and scatter-adds to the host; it fuses each layer's bias and cut at zero into the NEXT kernel, ahead of
  the matrix product. So between the two programs every host operation is the same operation on the same values, and
  what has to be shown is, per kernel, that the blocks it writes back tile one whole-array function that the reference
  spells as host operations:
    kernel 0:  the blocks of `x · W1` are the blocks of the reference's one product (Proof/Lin0.lean);
    kernels 1, 2:  the blocks of `max (A + b, 0) · W` are the blocks of the reference's broadcast, add, maximum, product
               (Proof/Lin1.lean, Proof/Lin2.lean against Proof/RefSide.lean, through the function `layer` of Proof/Spec.lean);
    kernel 3:  the blocks of `logistic (Σ_k Hs · Hd)`, a column, are the reference's row sum, negate, exponential, one plus,
               one over (Proof/Score.lean against Proof/RefSide.lean, through `score`); the logistic function IS
               `1 / (1 + e^(-x))` on every extended real, so no finiteness is used anywhere.
  Narrowing an operand to bf16 is the identity on extended reals, and a product accumulated into a zero block is the
  plain sum over the shared axis. Proof/Bnd3.lean … Proof/Bnd9.lean walk the program boundary by boundary: at each one
  the live buffers hold the reference's stages of the arguments. Proof/RunAll.lean is the kernel program's run with the
  result buffer named; the reference's run is the run module of Proof/RefRun.lean, read stage by stage in Proof/RefRead.lean.
-/
import proofs.«131875_j62371515072932_1_alg».proof.Defs
import proofs.«131875_j62371515072932_1_alg».proof.Proof.Gen.Kernel
import proofs.«131875_j62371515072932_1_alg».proof.Proof.Gen.Kernel.Skeleton
import proofs.«131875_j62371515072932_1_alg».proof.Proof.Gen.Kernel.Launch
import proofs.«131875_j62371515072932_1_alg».proof.Proof.Gen.Kernel.Points
import proofs.«131875_j62371515072932_1_alg».proof.Proof.Gen.Kernel.Frame
import proofs.«131875_j62371515072932_1_alg».proof.Proof.Gen.KernelIdeal
import proofs.«131875_j62371515072932_1_alg».proof.Proof.Gen.KernelIdeal.Skeleton
import proofs.«131875_j62371515072932_1_alg».proof.Proof.Gen.KernelIdeal.Launch
import proofs.«131875_j62371515072932_1_alg».proof.Proof.Gen.KernelIdeal.Points
import proofs.«131875_j62371515072932_1_alg».proof.Proof.Gen.KernelIdeal.Frame
import proofs.«131875_j62371515072932_1_alg».proof.Proof.Gen.ReferenceIdeal
import proofs.«131875_j62371515072932_1_alg».proof.Proof.Gen.Pre_finite_inputs
import proofs.«131875_j62371515072932_1_alg».proof.Proof.RefRun
import proofs.«131875_j62371515072932_1_alg».proof.Proof.RefRead
import proofs.«131875_j62371515072932_1_alg».proof.Proof.RunAll
import proofs.«131875_j62371515072932_1_alg».proof.Proof.Bnd9
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the reference's last stage of those
    arguments in their result buffers: the kernel program by its run and the walk along its boundaries, the
    reference by its run read stage by stage. -/
theorem algebraic : Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.Bnd.v96_11 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v108_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
